-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x96x192x192 : Shape := ⟨4, ![4, 96, 192, 192]⟩
abbrev S_ : Shape := ⟨0, ![]⟩

class Facts : Prop where
  bcast_S_S4x96x192x192 : S_.BroadcastsInDim S4x96x192x192 (![] : Fin 0 → Fin S4x96x192x192.rank)
  reducesTo_S4x96x192x192_S_d0_1_2_3 : S4x96x192x192.ReducesTo [0, 1, 2, 3] S_
  h_S_ : 0 < S_.numel

variable [Facts]

def fn {F : FTy → Type} [FloatOps F] (main_arg0 : FVec F S4x96x192x192 .f32) : IVec S_ 1 :=
  let main_v0 : FVec F S4x96x192x192 .f32 := Host.absf main_arg0
  let main_cst : FVec F S_ .f32 := constant S_ .f32 0x7F800000#32
  let main_v1 : FVec F S4x96x192x192 .f32 := broadcastInDim S4x96x192x192 ![] bcast_S_S4x96x192x192 main_cst
  let main_v2 : IVec S4x96x192x192 1 := cmpf .olt main_v0 main_v1
  let main_c : IVec S_ 1 := constantI S_ 1 1#1
  let main_v3 : IVec S_ 1 := (fun x v => Host.reduce IntOp.andi x v reducesTo_S4x96x192x192_S_d0_1_2_3 h_S_) main_v2 main_c
  main_v3
-- ==== Kernel.lean ====
abbrev S4x96x192x192 : Shape := ⟨4, ![4, 96, 192, 192]⟩
abbrev S4x96x384x384 : Shape := ⟨4, ![4, 96, 384, 384]⟩
abbrev S1x8x8x192 : Shape := ⟨4, ![1, 8, 8, 192]⟩
abbrev S1x8x384x384 : Shape := ⟨4, ![1, 8, 384, 384]⟩
abbrev S1x8x1x1 : Shape := ⟨4, ![1, 8, 1, 1]⟩
abbrev S8 : Shape := ⟨1, ![8]⟩
abbrev S8x384 : Shape := ⟨2, ![8, 384]⟩
abbrev S8x1 : Shape := ⟨2, ![8, 1]⟩
abbrev S1x8x1x384 : Shape := ⟨4, ![1, 8, 1, 384]⟩

abbrev nBuf : Space → Nat
  | .hbm => 2
  | .vmem => 4
  | .smem => 0
  | _ => 0

abbrev bufTy : (tb : Table) → Fin (tcTables nBuf tb) → BufTy
  | .hbm, ⟨0, _⟩ => ⟨S4x96x192x192, .f32⟩
  | .hbm, ⟨1, _⟩ => ⟨S4x96x384x384, .f32⟩
  | .local _ .vmem, ⟨0, _⟩ => ⟨S1x8x8x192, .f32⟩
  | .local _ .vmem, ⟨1, _⟩ => ⟨S1x8x8x192, .f32⟩
  | .local _ .vmem, ⟨2, _⟩ => ⟨S1x8x384x384, .f32⟩
  | .local _ .vmem, ⟨3, _⟩ => ⟨S1x8x384x384, .f32⟩
  | _, _ => ⟨S4x96x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 12], ![false, false]⟩

def cc0_transform_0 (i : grid0.Coords) : Fin 4 → Nat :=
  let arg0 : BitVec 32 := BitVec.ofNat 32 (i 0).val
  let arg1 : BitVec 32 := BitVec.ofNat 32 (i 1).val
  let c23_i32 : BitVec 32 := 23#32
  let c0_i32 : BitVec 32 := 0#32
  let c0_i32_0 : BitVec 32 := 0#32
  ![arg0.toNat, arg1.toNat, c23_i32.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x8x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x384x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x8x384x384_S1x8x384x384_0_0_0_0 : ∀ a, (![0, 0, 0, 0] : Fin 4 → Nat) a + S1x8x384x384.size a ≤ S1x8x384x384.size a
  h_S1x8x384x384 : 0 < S1x8x384x384.numel
  inb_S1x8x8x192_S1x8x1x1_0_0_7_191 : ∀ a, (![0, 0, 7, 191] : Fin 4 → Nat) a + S1x8x1x1.size a ≤ S1x8x8x192.size a
  h_S1x8x1x1 : 0 < S1x8x1x1.numel
  shapeCasts_S1x8x1x1_S8 : S1x8x1x1.ShapeCasts S8
  iota_S8x384_d1_w32 : S8x384.Iotas .tc 32 [1]
  shapeCasts_S8_S8x1 : S8.ShapeCasts S8x1
  shapeCasts_S8x1_S8x1 : S8x1.ShapeCasts S8x1
  broadcasts_S8x1_S8x384 : S8x1.Broadcasts S8x384
  inb_S1x8x384x384_S1x8x1x384_0_0_0_0 : ∀ a, (![0, 0, 0, 0] : Fin 4 → Nat) a + S1x8x1x384.size a ≤ S1x8x384x384.size a
  h_S1x8x1x384 : 0 < S1x8x1x384.numel
  shapeCasts_S1x8x1x384_S8x384 : S1x8x1x384.ShapeCasts S8x384
  shapeCasts_S8x384_S1x8x1x384 : S8x384.ShapeCasts S1x8x1x384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x8x192.size a ≤ S4x96x192x192.size a
  hwx0_0 : ∀ i : grid0.Coords, EltTy.bits .f32 = 32 ∨ (Rect.block (s := S4x96x192x192) S1x8x8x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x384x384.size a ≤ S4x96x384x384.size a
  hwx0_1 : ∀ i : grid0.Coords, EltTy.bits .f32 = 32 ∨ (Rect.block (s := S4x96x384x384) S1x8x384x384.size (cc0_transform_1 i) (hinb0_1 i)).WholeWords (EltTy.packing .f32)

variable [Facts₀]

abbrev win0_0 : Pipeline.Window sig grid0 :=
  Pipeline.Window.ofSpec (Memref.whole main_arg0) S1x8x8x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x384x384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x96x192x192 : Shape := ⟨4, ![4, 96, 192, 192]⟩
abbrev S4x96x36864 : Shape := ⟨3, ![4, 96, 36864]⟩
abbrev S_ : Shape := ⟨0, ![]⟩
abbrev S4x96x147456 : Shape := ⟨3, ![4, 96, 147456]⟩
abbrev S4 : Shape := ⟨1, ![4]⟩
abbrev S4x1x1 : Shape := ⟨3, ![4, 1, 1]⟩
abbrev S96 : Shape := ⟨1, ![96]⟩
abbrev S1x96x1 : Shape := ⟨3, ![1, 96, 1]⟩
abbrev S4x96x36864x1 : Shape := ⟨4, ![4, 96, 36864, 1]⟩
abbrev S4x96x36864x3 : Shape := ⟨4, ![4, 96, 36864, 3]⟩
abbrev S4x96x384x384 : Shape := ⟨4, ![4, 96, 384, 384]⟩

abbrev nBuf : Space → Nat
  | .hbm => 39
  | .vmem => 0
  | .smem => 0
  | _ => 0

abbrev bufTy : (tb : Table) → Fin (tcTables nBuf tb) → BufTy
  | .hbm, ⟨0, _⟩ => ⟨S4x96x192x192, .f32⟩
  | .hbm, ⟨1, _⟩ => ⟨S4x96x36864, .f32⟩
  | .hbm, ⟨2, _⟩ => ⟨S_, .i32⟩
  | .hbm, ⟨3, _⟩ => ⟨S4x96x36864, .i32⟩
  | .hbm, ⟨4, _⟩ => ⟨S_, .f32⟩
  | .hbm, ⟨5, _⟩ => ⟨S4x96x147456, .f32⟩
  | .hbm, ⟨6, _⟩ => ⟨S4, .i32⟩
  | .hbm, ⟨7, _⟩ => ⟨S4x1x1, .i32⟩
  | .hbm, ⟨8, _⟩ => ⟨S96, .i32⟩
  | .hbm, ⟨9, _⟩ => ⟨S1x96x1, .i32⟩
  | .hbm, ⟨10, _⟩ => ⟨S_, .i32⟩
  | .hbm, ⟨11, _⟩ => ⟨S4x1x1, .i32⟩
  | .hbm, ⟨12, _⟩ => ⟨S4x1x1, .i1⟩
  | .hbm, ⟨13, _⟩ => ⟨S_, .i32⟩
  | .hbm, ⟨14, _⟩ => ⟨S4x1x1, .i32⟩
  | .hbm, ⟨15, _⟩ => ⟨S4x1x1, .i32⟩
  | .hbm, ⟨16, _⟩ => ⟨S4x1x1, .i32⟩
  | .hbm, ⟨17, _⟩ => ⟨S_, .i32⟩
  | .hbm, ⟨18, _⟩ => ⟨S1x96x1, .i32⟩
  | .hbm, ⟨19, _⟩ => ⟨S1x96x1, .i1⟩
  | .hbm, ⟨20, _⟩ => ⟨S_, .i32⟩
  | .hbm, ⟨21, _⟩ => ⟨S1x96x1, .i32⟩
  | .hbm, ⟨22, _⟩ => ⟨S1x96x1, .i32⟩
  | .hbm, ⟨23, _⟩ => ⟨S1x96x1, .i32⟩
  | .hbm, ⟨24, _⟩ => ⟨S_, .i32⟩
  | .hbm, ⟨25, _⟩ => ⟨S4x96x36864, .i32⟩
  | .hbm, ⟨26, _⟩ => ⟨S4x96x36864, .i1⟩
  | .hbm, ⟨27, _⟩ => ⟨S_, .i32⟩
  | .hbm, ⟨28, _⟩ => ⟨S4x96x36864, .i32⟩
  | .hbm, ⟨29, _⟩ => ⟨S4x96x36864, .i32⟩
  | .hbm, ⟨30, _⟩ => ⟨S4x96x36864, .i32⟩
  | .hbm, ⟨31, _⟩ => ⟨S4x96x36864, .i32⟩
  | .hbm, ⟨32, _⟩ => ⟨S4x96x36864, .i32⟩
  | .hbm, ⟨33, _⟩ => ⟨S4x96x36864x1, .i32⟩
  | .hbm, ⟨34, _⟩ => ⟨S4x96x36864x1, .i32⟩
  | .hbm, ⟨35, _⟩ => ⟨S4x96x36864x1, .i32⟩
  | .hbm, ⟨36, _⟩ => ⟨S4x96x36864x3, .i32⟩
  | .hbm, ⟨37, _⟩ => ⟨S4x96x147456, .f32⟩
  | .hbm, ⟨38, _⟩ => ⟨S4x96x384x384, .f32⟩
  | _, _ => ⟨S4x96x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_c_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  shapeCasts_S4x96x192x192_S4x96x36864 : S4x96x192x192.ShapeCasts S4x96x36864
  bcast_S_S4x96x36864 : S_.BroadcastsInDim S4x96x36864 (![] : Fin 0 → Fin S4x96x36864.rank)
  bcast_S_S4x96x147456 : S_.BroadcastsInDim S4x96x147456 (![] : Fin 0 → Fin S4x96x147456.rank)
  bcast_S4_S4x1x1_0 : S4.BroadcastsInDim S4x1x1 (![0] : Fin 1 → Fin S4x1x1.rank)
  bcast_S96_S1x96x1_1 : S96.BroadcastsInDim S1x96x1 (![1] : Fin 1 → Fin S1x96x1.rank)
  bcast_S_S4x1x1 : S_.BroadcastsInDim S4x1x1 (![] : Fin 0 → Fin S4x1x1.rank)
  bcast_S_S1x96x1 : S_.BroadcastsInDim S1x96x1 (![] : Fin 0 → Fin S1x96x1.rank)
  bcast_S4x1x1_S4x96x36864_0_1_2 : S4x1x1.BroadcastsInDim S4x96x36864 (![0, 1, 2] : Fin 3 → Fin S4x96x36864.rank)
  bcast_S1x96x1_S4x96x36864_0_1_2 : S1x96x1.BroadcastsInDim S4x96x36864 (![0, 1, 2] : Fin 3 → Fin S4x96x36864.rank)
  bcast_S4x96x36864_S4x96x36864x1_0_1_2 : S4x96x36864.BroadcastsInDim S4x96x36864x1 (![0, 1, 2] : Fin 3 → Fin S4x96x36864x1.rank)
  concatenates_S4x96x36864x1_S4x96x36864x1_S4x96x36864x1_S4x96x36864x3_d3 : Shape.Concatenates [S4x96x36864x1, S4x96x36864x1, S4x96x36864x1] S4x96x36864x3 3
  shapeCasts_S4x96x147456_S4x96x384x384 : S4x96x147456.ShapeCasts S4x96x384x384
  scatter_S4x96x147456_S4x96x36864x3_S4x96x36864_n_012_012_3_wf : ScatterDims.WF S4x96x147456 S4x96x36864x3 S4x96x36864 [] [0, 1, 2] [0, 1, 2] 3

variable [Facts₀]

def scatter_S4x96x147456_S4x96x36864x3_S4x96x36864_n_012_012_3 : ScatterDims S4x96x147456 S4x96x36864x3 S4x96x36864 where
  updateWindowDims := []
  insertedWindowDims := [0, 1, 2]
  scatterDimsToOperandDims := [0, 1, 2]
  indexVectorDim := 3
  wf := scatter_S4x96x147456_S4x96x36864x3_S4x96x36864_n_012_012_3_wf

class Facts : Prop extends Facts₀ where

variable [Facts]
-- ==== Proof.KernelBlock.lean ====
/-
  The kernel's body, read as values.

  At every grid point the body fills the output block (one batch entry, eight planes of 384 × 384) with the zero
  word, then overwrites row 0 of each plane: column 1 of that row receives element (7, 191) of the matching plane of
  the input block (eight planes of the LAST eight rows of the input planes), every other column the zero word again.
  So the block the body leaves is, index by index, "that one input element at (row 0, column 1), zero elsewhere".
  Nothing here depends on the float instance: the only operations on floats are moves and a select.
-/
import proofs.«172305_g5016521802084_cont_8to1_c_880_4_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem

namespace Cert.KernelIdeal.Block

open Cert.KernelIdeal Cert.KernelIdeal.Gen

variable {F : FTy → Type} [FloatOps F]

/-- The format's zero word, as the body splats it. -/
abbrev zero32 : F .f32 := FloatOps.ofBits .f32 0x00000000#32

theorem hz4 : (![0, 0, 0, 0] : Fin 4 → Nat) = fun _ => 0 := funext fun a => by fin_cases a <;> rfl

/-- Comparing a small column number with 1, as 32-bit words. -/
theorem cmpi_eq_one (q : Nat) (hq : q < 384) :
    IntOp.cmpi .eq (BitVec.ofNat 32 q) 1#32 = if q = 1 then 1#1 else 0#1 := by
  by_cases h : q = 1
  · subst h; rw [if_pos rfl]; decide
  · rw [if_neg h]
    have hne : BitVec.ofNat 32 q ≠ 1#32 := fun e => h (by
      have := congrArg BitVec.toNat e
      simp only [BitVec.toNat_ofNat] at this
      omega)
    show BitVec.ofBool (BitVec.ofNat 32 q == 1#32) = 0#1
    rw [beq_eq_false_iff_ne.mpr hne]; rfl

/-- The second store's payload, read at row `p`, column `q` of the block's first plane row: the loaded element of row `p`
    in column 1, the zero elsewhere. -/
theorem pay2_apply (v2 : Vec F S1x8x1x1 .f32) (o o' : Fin 1) (p : Fin 8) (q : Fin 384) :
    k0_pay2 v2 (ValueIdx.ix4 o p o' q)
      = if q.val = 1 then v2 (ValueIdx.ix4 (0 : Fin 1) p (0 : Fin 1) (0 : Fin 1)) else zero32 := by
  have ho : o.val = 0 := by have := o.isLt; omega
  have ho' : o'.val = 0 := by have := o'.isLt; omega
  unfold k0_pay2
  rw [shapeCast_apply _ shapeCasts_S8x384_S1x8x1x384 _ (ValueIdx.ix2 p q)
    (by rw [Shape.rowMajor_val_two, Shape.rowMajor_val_four]; show p.val * 384 + q.val = ((o.val * 8 + p.val) * 1 + o'.val) * 384 + q.val; omega)]
  rw [ValueIdx.select_apply]
  rw [show cmpi CmpIPredicate.eq (iota Kind.tc S8x384 32 [1] iota_S8x384_d1_w32) (broadcast S8x384 1#32) (ValueIdx.ix2 p q)
      = IntOp.cmpi .eq (iota Kind.tc S8x384 32 [1] iota_S8x384_d1_w32 (ValueIdx.ix2 p q)) 1#32 from rfl,
    iota_single_apply, ValueIdx.broadcast_apply]
  rw [broadcastTo_apply _ broadcasts_S8x1_S8x384 _ (ValueIdx.ix2 p (0 : Fin 1)) (fun a => by
    match a with
    | ⟨0, _⟩ => show p.val = if (8 : Nat) = 1 then 0 else p.val; rw [if_neg (by decide)]
    | ⟨1, _⟩ => show 0 = if (1 : Nat) = 1 then 0 else q.val; rw [if_pos rfl])]
  rw [shapeCast_self]
  rw [shapeCast_apply _ shapeCasts_S8_S8x1 _ (ValueIdx.ix1 p)
    (by rw [Shape.rowMajor_val_one, Shape.rowMajor_val_two]; show p.val = p.val * 1 + 0; omega)]
  rw [shapeCast_apply _ shapeCasts_S1x8x1x1_S8 _ (ValueIdx.ix4 (0 : Fin 1) p (0 : Fin 1) (0 : Fin 1))
    (by rw [Shape.rowMajor_val_four, Shape.rowMajor_val_one]; show ((0 * 8 + p.val) * 1 + 0) * 1 + 0 = p.val; omega)]
  show Scalar.select (IntOp.cmpi .eq (BitVec.ofNat 32 q.val) 1#32) _ _ = _
  rw [cmpi_eq_one q.val q.isLt]
  by_cases h : q.val = 1
  · rw [if_pos h, if_pos h, ValueIdx.select_one]
  · rw [if_neg h, if_neg h, ValueIdx.select_zero]

/-- What the body leaves in the output's staging buffer, read at plane `p`, row `r`, column `q` of the block: the
    zero fill everywhere, except that row 0 was then overwritten — column 1 of it by the LAST element (row 7, column
    191) of plane `p` of the input block, its other columns by the zero again. -/
theorem out_A_apply (c : Dev nD) (i : grid0.Coords) (a2 : Memref sig .tc .vmem S1x8x8x192 .f32) (h2 : a2.IsWhole)
    (a3 : Memref sig .tc .vmem S1x8x384x384 .f32) (h3 : a3.IsWhole) (x0 : Vec F S1x8x8x192 .f32)
    (o : Fin 1) (p : Fin 8) (r q : Fin 384) :
    out0_A_1 c i a2 h2 a3 h3 x0 (ValueIdx.ix4 o p r q)
      = if r.val = 0 ∧ q.val = 1 then x0 (ValueIdx.ix4 (0 : Fin 1) p (7 : Fin 8) (191 : Fin 192)) else zero32 := by
  have ho : o.val = 0 := by have := o.isLt; omega
  unfold out0_A_1
  rw [View.read_writes_eq_canon _ _ _ (cover0_A_1 c i a2 h2 a3 h3 x0)]
  unfold kernelRun0_A
  dsimp only
  sl_unfold_words
  by_cases hr : r.val = 0
  · have hy : ValueIdx.ix4 o p r q
        = (Rect.unit (s := S1x8x384x384) ![0, 0, 0, 0] ![1, 8, 1, 384] inb_S1x8x384x384_S1x8x1x384_0_0_0_0).emb
            (ValueIdx.ix4 o p (0 : Fin 1) q) := by
      funext a; apply Fin.ext
      match a with
      | ⟨0, _⟩ => show o.val = 0 + 1 * o.val; omega
      | ⟨1, _⟩ => show p.val = 0 + 1 * p.val; omega
      | ⟨2, _⟩ => show r.val = 0 + 1 * 0; omega
      | ⟨3, _⟩ => show q.val = 0 + 1 * q.val; omega
    rw [hy, View.canon_cons_emb, pay2_apply]
    simp only [View.readAt_eq_ld, h2.read_unread]
    have hx : View.ld x0 (Rect.unit (s := S1x8x8x192) ![0, 0, 7, 191] ![1, 8, 1, 1] inb_S1x8x8x192_S1x8x1x1_0_0_7_191)
          (ValueIdx.ix4 (0 : Fin 1) p (0 : Fin 1) (0 : Fin 1))
        = x0 (ValueIdx.ix4 (0 : Fin 1) p (7 : Fin 8) (191 : Fin 192)) := by
      show x0 _ = x0 _
      congr 1
      funext a; apply Fin.ext
      match a with
      | ⟨0, _⟩ => rfl
      | ⟨1, _⟩ => show 0 + 1 * p.val = p.val; omega
      | ⟨2, _⟩ => rfl
      | ⟨3, _⟩ => rfl
    rw [hx]
    by_cases hq : q.val = 1
    · rw [if_pos hq, if_pos ⟨hr, hq⟩]
    · rw [if_neg hq, if_neg (fun h => hq h.2)]
  · rw [View.canon_cons_of_not_mem _ _ (by
      rw [Rect.mem_set_unit]
      intro hm
      have h2' : ((ValueIdx.ix4 o p r q : S1x8x384x384.Idx) 2 : Nat) < (![0, 0, 0, 0] : Fin 4 → Nat) 2 + (![1, 8, 1, 384] : Fin 4 → Nat) 2 := (hm 2).2
      have : r.val < 0 + 1 := h2'
      omega)]
    rw [View.canon_unit_zero hz4, if_neg (fun h => hr h.1)]
    rfl

end Cert.KernelIdeal.Block

end
-- ==== Proof.Spec.lean ====
/-
  The specification both programs meet.

  Max-unpooling by 2 with EVERY pooling index equal to 1: each input plane `x[b, c, :, :]` (192 × 192) is scattered into a
  zero plane of 384 × 384, every one of its elements aimed at flat position 1 of the plane, i.e. at (row 0, column 1).
  The writes to that one position are made in row-major order of the input plane and each overwrites the one before, so
  the last one stays: element (191, 191). Hence

      out[b, c, 0, 1] = x[b, c, 191, 191],      out[b, c, r, q] = 0   everywhere else.

  The statement needs no arithmetic on floats at all (only the zero word and moves), so it is made for any float
  instance; the certificate reads it at the extended reals.
-/
import Idealize.ShloMosaic.PureOps
import Idealize.ShloMosaic.Lib.ValueIdx

noncomputable section

namespace Cert.Unpool

open Idealize.ShloMosaic

variable {F : FTy → Type} [FloatOps F]

/-- The result array as ONE function of the argument array, index by index: the last element of the input plane at
    (row 0, column 1) of the output plane, the zero word elsewhere. -/
def G (x : (⟨4, ![4, 96, 192, 192]⟩ : Shape).Idx → F .f32) : (⟨4, ![4, 96, 384, 384]⟩ : Shape).Idx → F .f32 := fun i =>
  if (i 2).val = 0 ∧ (i 3).val = 1 then x (ValueIdx.ix4 (i 0) (i 1) (191 : Fin 192) (191 : Fin 192))
  else FloatOps.ofBits .f32 0x00000000#32

end Cert.Unpool

end
-- ==== Proof.KernelValue.lean ====
/-
  The kernel's result array, whole.

  The grid has one point per (batch entry, group of eight planes): 4 × 12 = 48 points. Point `t` stages the last eight
  rows of its eight input planes and writes back a block of eight whole output planes; the blocks of the 48 points tile
  the result array, so the array after the run is, block by block, what each point's body left — and what the body
  leaves (row 0, column 1 of each plane: the input plane's last element; zero elsewhere) is the restriction of the
  specification to the block, because row 7 of the last block of eight rows is row 191 of the plane.
-/
import proofs.«172305_g5016521802084_cont_8to1_c_880_4_alg».proof.Proof.KernelBlock
import proofs.«172305_g5016521802084_cont_8to1_c_880_4_alg».proof.Proof.Spec
import proofs.«172305_g5016521802084_cont_8to1_c_880_4_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Block Cert.Unpool

variable {F : FTy → Type} [FloatOps F]
variable (m : (ℓ : Loc nD τ sig) → Buf (Elt F) ℓ) (ρ : Dev nD → PrngReg)

/-- The printed index maps, decided once over the 48 grid points: the input block sits at the same batch entry and the
    same group of eight planes as the output block, on the LAST block of eight rows (block 23 of 24) and the one block
    of columns; the output block is the whole plane. -/
theorem idx_facts : ∀ t : Fin cfg0.N, win0_0.index t (0 : Fin 4) = win0_1.index t (0 : Fin 4)
    ∧ win0_0.index t (1 : Fin 4) = win0_1.index t (1 : Fin 4)
    ∧ win0_0.index t (2 : Fin 4) = 23 ∧ win0_0.index t (3 : Fin 4) = 0
    ∧ win0_1.index t (2 : Fin 4) = 0 ∧ win0_1.index t (3 : Fin 4) = 0
    ∧ win0_1.index t (0 : Fin 4) ≤ 3 ∧ win0_1.index t (1 : Fin 4) ≤ 11 :=
  (by decide +kernel : ∀ t : Fin grid0.N, _)

/-- Every (batch entry, group of eight planes) is some grid point's output block. -/
theorem idx_onto : ∀ (q0 : Fin 4) (q1 : Fin 12), ∃ t : Fin cfg0.N, win0_1.index t = ![q0.val, q1.val, 0, 0] :=
  (by decide +kernel : ∀ (q0 : Fin 4) (q1 : Fin 12), ∃ t : Fin grid0.N, win0_1.index t = ![q0.val, q1.val, 0, 0])

/-- What point `t` writes back is block `t` of the specification of the argument array. -/
theorem flushed_eq (c : Dev nD) (t : Fin cfg0.N) :
    (dats m 0 c).flushed 1 t = ((cfg0.win 1).blk t).view.read (Elt F) (G (V m c main_arg0)) := by
  rw [Value.flushed1_A]
  obtain ⟨e0, e1, e2, e3, e4, e5, e6, e7⟩ := idx_facts t
  funext j
  show out0_A_1 c (grid0.coords t) (ms0_0 t) (hs0_0 t) (ms0_1 t) (hs0_1 t) (iblk m c 0 t) j
    = G (V m c main_arg0) (((cfg0.win 1).blk t).view.emb j)
  have hj : j = ValueIdx.ix4 (j 0) (j 1) (j 2) (j 3) :=
    ValueIdx.eq_ix4 (n0 := 1) (n1 := 8) (n2 := 384) (n3 := 384) j
  refine (congrArg (out0_A_1 c (grid0.coords t) (ms0_0 t) (hs0_0 t) (ms0_1 t) (hs0_1 t) (iblk m c 0 t)) hj).trans ?_
  refine (out_A_apply c (grid0.coords t) (ms0_0 t) (hs0_0 t) (ms0_1 t) (hs0_1 t) (iblk m c 0 t) (j 0) (j 1) (j 2) (j 3)).trans ?_
  have h0 : ((((cfg0.win 1).blk t).view.emb j) 0).val = win0_1.index t (0 : Fin 4) * 1 + 1 * (j 0).val := rfl
  have h1 : ((((cfg0.win 1).blk t).view.emb j) 1).val = win0_1.index t (1 : Fin 4) * 8 + 1 * (j 1).val := rfl
  have h2 : ((((cfg0.win 1).blk t).view.emb j) 2).val = win0_1.index t (2 : Fin 4) * 384 + 1 * (j 2).val := rfl
  have h3 : ((((cfg0.win 1).blk t).view.emb j) 3).val = win0_1.index t (3 : Fin 4) * 384 + 1 * (j 3).val := rfl
  have hj0 : (j 0).val = 0 := by have : (j 0).val < 1 := (j 0).isLt; omega
  unfold G
  by_cases hc : (j 2).val = 0 ∧ (j 3).val = 1
  · rw [if_pos hc, if_pos ⟨by rw [h2, e4]; omega, by rw [h3, e5]; omega⟩]
    show V m c main_arg0 (((cfg0.win 0).blk t).view.emb (ValueIdx.ix4 (0 : Fin 1) (j 1) (7 : Fin 8) (191 : Fin 192))) = V m c main_arg0 _
    congr 1
    funext a; apply Fin.ext
    match a with
    | ⟨0, _⟩ => show win0_0.index t (0 : Fin 4) * 1 + 1 * 0 = ((((cfg0.win 1).blk t).view.emb j) 0).val; rw [h0]; omega
    | ⟨1, _⟩ => show win0_0.index t (1 : Fin 4) * 8 + 1 * (j 1).val = ((((cfg0.win 1).blk t).view.emb j) 1).val; rw [h1]; omega
    | ⟨2, _⟩ => show win0_0.index t (2 : Fin 4) * 8 + 1 * 7 = 191; omega
    | ⟨3, _⟩ => show win0_0.index t (3 : Fin 4) * 192 + 1 * 191 = 191; omega
  · rw [if_neg hc, if_neg (fun h => hc ⟨by have := h.1; rw [h2, e4] at this; omega, by have := h.2; rw [h3, e5] at this; omega⟩)]

/-- An index of the result array is in point `t`'s block iff each coordinate is in the block's range on its axis. -/
theorem mem_blk (t : Fin cfg0.N) (i : S4x96x384x384.Idx) :
    i ∈ ((cfg0.win 1).blk t).view.set ↔ ∀ a : Fin 4, win0_1.index t a * S1x8x384x384.size a ≤ (i a).val ∧ (i a).val < win0_1.index t a * S1x8x384x384.size a + S1x8x384x384.size a := by
  show i ∈ ((View.whole main_v0).slice (win0_1.rect t)).set ↔ _
  rw [View.set_slice_whole, Rect.mem_set_unit]
  exact Iff.rfl

/-- Every index of the result array lies in some point's block: the one of its batch entry and its group of eight
    planes. -/
theorem cover (i : S4x96x384x384.Idx) :
    ∃ t : Fin cfg0.N, (cfg0.win 1).flush t = true ∧ i ∈ ((cfg0.win 1).blk t).view.set := by
  have hi0 : (i 0).val < 4 := (i 0).isLt
  have hi1 : (i 1).val < 96 := (i 1).isLt
  have hi2 : (i 2).val < 384 := (i 2).isLt
  have hi3 : (i 3).val < 384 := (i 3).isLt
  obtain ⟨t, ht⟩ := idx_onto ⟨(i 0).val, hi0⟩ ⟨(i 1).val / 8, by omega⟩
  have q0 : win0_1.index t (0 : Fin 4) = (i 0).val := congrFun ht 0
  have q1 : win0_1.index t (1 : Fin 4) = (i 1).val / 8 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 8 ≤ (i 1).val ∧ (i 1).val < win0_1.index t (1 : Fin 4) * 8 + 8; omega
  | ⟨2, _⟩ => show win0_1.index t (2 : Fin 4) * 384 ≤ (i 2).val ∧ (i 2).val < win0_1.index t (2 : Fin 4) * 384 + 384; omega
  | ⟨3, _⟩ => show win0_1.index t (3 : Fin 4) * 384 ≤ (i 3).val ∧ (i 3).val < win0_1.index t (3 : Fin 4) * 384 + 384; omega

/-- The result array after the run is the specification of the argument array. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

/-- The kernel's run, read: the result array at the specification of the argument array, the argument unchanged. -/
theorem run : θ_run defs (onTc (τ := τ) (main (F := F))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole
end
-- ==== Proof.LibScatterLast.lean ====
import Idealize.ShloMosaic.PureOps.ShapeOps
import Mathlib.Data.List.Sort

/-!
# An overwriting scatter keeps, at each element, the last update that lands there

`Host.scatter d (fun _ b => b)` is a left fold over the update indices in row-major order, each step
overwriting the element its update lands on. Read at ONE element `i` of the result this is:

* the operand's element, when no update lands on `i` (`scatter_set_miss`);
* the update at `j₀`, when `j₀` lands on `i` and every update landing on `i` comes no later than `j₀` in
  row-major order (`scatter_set_last`).

Both follow from two facts about a left fold of functions read at one point (`foldl_miss`, `foldl_last`); nothing
here depends on the shapes, so the list of update indices is never enumerated.
-/

namespace Cert.Lib.ScatterLast

open Idealize.ShloMosaic

section Fold

variable {ι κ α : Type}

/-- A left fold of functions, read at `i`, is unchanged by steps that do not touch `i`. -/
theorem foldl_miss (g : (κ → α) → ι → κ → α) (tgt : ι → Option κ) (i : κ)
    (hmiss : ∀ r n, tgt n ≠ some i → g r n i = r i) :
    ∀ (l : List ι) (r : κ → α), (∀ n ∈ l, tgt n ≠ some i) → l.foldl g r i = r i := by
  intro l
  induction l with
  | nil => intro r _; rfl
  | cons a l ih =>
    intro r h
    rw [List.foldl_cons, ih _ (fun n hn => h n (List.mem_cons_of_mem _ hn)), hmiss r a (h a (by simp))]

/-- Over a strictly increasing list, a left fold of overwriting steps read at `i` is the value written by the
    largest step that touches `i`. -/
theorem foldl_last [Preorder ι] (g : (κ → α) → ι → κ → α) (tgt : ι → Option κ) (v : ι → α) (i : κ)
    (hmiss : ∀ r n, tgt n ≠ some i → g r n i = r i)
    (hhit : ∀ r n, tgt n = some i → g r n i = v n) (n₀ : ι) (h₀ : tgt n₀ = some i) :
    ∀ (l : List ι) (r : κ → α), l.Pairwise (· < ·) → n₀ ∈ l → (∀ n ∈ l, tgt n = some i → n ≤ n₀) →
      l.foldl g r i = v n₀ := by
  intro l
  induction l with
  | nil => intro r _ hm; simp at hm
  | cons a l ih =>
    intro r hp hm hle
    rw [List.foldl_cons]
    rw [List.pairwise_cons] at hp
    by_cases ha : a = n₀
    · subst ha
      rw [foldl_miss g tgt i hmiss l _ ?_, hhit r a h₀]
      intro n hn hcon
      exact absurd (hle n (List.mem_cons_of_mem _ hn) hcon) (not_le_of_gt (hp.1 n hn))
    · have hm' : n₀ ∈ l := by
        rcases List.mem_cons.1 hm with h | h
        · exact absurd h.symm ha
        · exact h
      exact ih _ hp.2 hm' (fun n hn => hle n (List.mem_cons_of_mem _ hn))

end Fold

variable {s si u : Shape} {w : Nat} {α : Type}

/-- An update lands on the operand index whose coordinate on every axis is the window's start there plus the window
    coordinate. -/
theorem resultIdx?_eq_some (d : ScatterDims s si u) (j : u.Idx) (idx : IVec si w) (k : s.Idx)
    (h : ∀ a, d.start j idx a + (d.window j a : Int) = ((k a).val : Int)) : d.resultIdx? j idx = some k := by
  unfold ScatterDims.resultIdx?
  rw [dif_pos (fun a => by rw [h a]; have := (k a).isLt; omega)]
  congr 1
  funext a
  apply Fin.ext
  show (d.start j idx a + (d.window j a : Int)).toNat = (k a).val
  rw [h a]
  exact Int.toNat_natCast _

/-- An element no update lands on keeps the operand's value. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  unfold Host.scatter
  refine foldl_miss _ (fun n => d.resultIdx? (u.rowMajor.symm n) idx) i ?_ _ _ (fun n _ => h _)
  intro r n hn
  dsimp only at hn ⊢
  generalize d.resultIdx? (u.rowMajor.symm n) idx = o at hn ⊢
  cases o with
  | none => rfl
  | some k =>
    show (if i = k then _ else r i) = r i
    rw [if_neg]
    rintro rfl
    exact hn rfl

/-- An element some update lands on holds the update that is last, in row-major order, among those landing there. -/
theorem scatter_set_last (d : ScatterDims s si u) (x : s.Idx → α) (idx : IVec si w) (upd : u.Idx → α) (i : s.Idx)
    (j₀ : u.Idx) (h₀ : d.resultIdx? j₀ idx = some i)
    (hle : ∀ j, d.resultIdx? j idx = some i → u.rowMajor j ≤ u.rowMajor j₀) :
    Host.scatter d (fun _ b => b) x idx upd i = upd j₀ := by
  unfold Host.scatter
  refine (foldl_last _ (fun n => d.resultIdx? (u.rowMajor.symm n) idx) (fun n => upd (u.rowMajor.symm n)) i ?_ ?_
    (u.rowMajor j₀) ?_ _ _ (List.sortedLT_finRange _).pairwise (List.mem_finRange _) ?_).trans ?_
  · intro r n hn
    dsimp only at hn ⊢
    generalize d.resultIdx? (u.rowMajor.symm n) idx = o at hn ⊢
    cases o with
    | none => rfl
    | some k =>
      show (if i = k then _ else r i) = r i
      rw [if_neg]
      rintro rfl
      exact hn rfl
  · intro r n hn
    dsimp only at hn ⊢
    rw [hn]
    exact if_pos rfl
  · show d.resultIdx? (u.rowMajor.symm (u.rowMajor j₀)) idx = some i
    rw [Equiv.symm_apply_apply]; exact h₀
  · intro n _ hn
    have := hle _ hn
    rwa [Equiv.apply_symm_apply] at this
  · show upd (u.rowMajor.symm (u.rowMajor j₀)) = upd j₀
    rw [Equiv.symm_apply_apply]

end Cert.Lib.ScatterLast
-- ==== Proof.RefScatter.lean ====
/-
  Where the reference's scatter writes.

  The reference builds, for every element `(b, c, k)` of the flattened input (k a flat position in the 192 × 192 plane),
  an index vector `(b, c, 1)`: the batch and plane numbers from two iotas (each passed through jnp's wrap of negative
  indices, which leaves them alone) and the constant pooling index 1, the three joined on a trailing axis. The scatter
  has no window axes, so update `(b, c, k)` lands on element `(b, c, 1)` of the flattened output, whatever `k` is:
  36864 updates per plane, all on one element.
-/
import proofs.«172305_g5016521802084_cont_8to1_c_880_4_alg».proof.Proof.Gen.ReferenceIdeal.Read
import proofs.«172305_g5016521802084_cont_8to1_c_880_4_alg».proof.Proof.LibScatterLast
import Idealize.ShloMosaic.Lib.Pipeline.Value
import Idealize.ShloMosaic.Lib.ValueIdx

noncomputable section

open Idealize.ShloMosaic Idealize.ShloMosaic.TcCoe Idealize.SL.Sem

namespace Cert.ReferenceIdeal.Scatter

open Cert.ReferenceIdeal Cert.ReferenceIdeal.Gen Cert.ReferenceIdeal.Read

variable {F : FTy → Type} [FloatOps F]

/-- jnp's wrap of a possibly negative index (add the extent when negative) leaves a batch number alone. -/
theorem wrap4 : ∀ n : Fin 4, Scalar.select (IntOp.cmpi .slt (BitVec.ofNat 32 n.val) 0#32)
    (IntOp.addi (BitVec.ofNat 32 n.val) 4#32) (BitVec.ofNat 32 n.val) = BitVec.ofNat 32 n.val := by decide

/-- … and a plane number, -/
theorem wrap96 : ∀ n : Fin 96, Scalar.select (IntOp.cmpi .slt (BitVec.ofNat 32 n.val) 0#32)
    (IntOp.addi (BitVec.ofNat 32 n.val) 96#32) (BitVec.ofNat 32 n.val) = BitVec.ofNat 32 n.val := by decide

/-- … and the pooling index 1. -/
theorem wrap1 : Scalar.select (IntOp.cmpi .slt 1#32 0#32) (IntOp.addi 1#32 147456#32) (1#32 : BitVec 32) = 1#32 := by decide

/-- Component 0 of a scatter index vector is the update's batch number. -/
theorem comp0 (k : S4x96x36864x3.Idx) (h : (k 3).val = 0) : val_main_v27 (F := F) k = BitVec.ofNat 32 (k 0).val := by
  unfold val_main_v27
  rw [concatenate_apply_piece (3 : Fin 4) _ _ k 0 (by show 0 < 3; omega) S4x96x36864x1 (val_main_v24 (F := F)) rfl rfl 0 rfl
    (ValueIdx.ix4 (k 0) (k 1) (k 2) (0 : Fin 1)) (fun b hb => by
      match b with
      | ⟨0, _⟩ => rfl
      | ⟨1, _⟩ => rfl
      | ⟨2, _⟩ => rfl
      | ⟨3, _⟩ => exact absurd rfl hb) (by rw [h]; rfl)]
  rw [val_main_v24_apply, val_main_v22_apply, val_main_v11_apply, val_main_v8_apply, val_main_v10_apply, val_main_v4_apply,
    val_main_v7_apply, val_main_v9_apply, val_main_v3_apply, val_main_c_0_apply, val_main_c_1_apply]
  exact wrap4 (k 0)

/-- Component 1 is its plane number. -/
theorem comp1 (k : S4x96x36864x3.Idx) (h : (k 3).val = 1) : val_main_v27 (F := F) k = BitVec.ofNat 32 (k 1).val := by
  unfold val_main_v27
  rw [concatenate_apply_piece (3 : Fin 4) _ _ k 1 (by show 1 < 3; omega) S4x96x36864x1 (val_main_v25 (F := F)) rfl rfl 1 rfl
    (ValueIdx.ix4 (k 0) (k 1) (k 2) (0 : Fin 1)) (fun b hb => by
      match b with
      | ⟨0, _⟩ => rfl
      | ⟨1, _⟩ => rfl
      | ⟨2, _⟩ => rfl
      | ⟨3, _⟩ => exact absurd rfl hb) (by rw [h]; rfl)]
  rw [val_main_v25_apply, val_main_v23_apply, val_main_v16_apply, val_main_v13_apply, val_main_v15_apply, val_main_v6_apply,
    val_main_v12_apply, val_main_v14_apply, val_main_v5_apply, val_main_c_2_apply, val_main_c_3_apply]
  exact wrap96 (k 1)

/-- Component 2 is the pooling index, 1 for every update. -/
theorem comp2 (k : S4x96x36864x3.Idx) (h : (k 3).val = 2) : val_main_v27 (F := F) k = 1#32 := by
  unfold val_main_v27
  rw [concatenate_apply_piece (3 : Fin 4) _ _ k 2 (by show 2 < 3; omega) S4x96x36864x1 (val_main_v26 (F := F)) rfl rfl 2 rfl
    (ValueIdx.ix4 (k 0) (k 1) (k 2) (0 : Fin 1)) (fun b hb => by
      match b with
      | ⟨0, _⟩ => rfl
      | ⟨1, _⟩ => rfl
      | ⟨2, _⟩ => rfl
      | ⟨3, _⟩ => exact absurd rfl hb) (by rw [h]; rfl)]
  rw [val_main_v26_apply, val_main_v21_apply, val_main_v18_apply, val_main_v20_apply, val_main_v1_apply,
    val_main_v17_apply, val_main_v19_apply, val_main_c_apply, val_main_c_4_apply, val_main_c_5_apply]
  exact wrap1

/-- The scatter's dimension numbers: every operand axis is indexed (no window), the index vector is the last axis. -/
abbrev dims : ScatterDims S4x96x147456 S4x96x36864x3 S4x96x36864 := scatter_S4x96x147456_S4x96x36864x3_S4x96x36864_n_012_012_3

/-- Where update `j` reads component `c` of its index vector: `c` on the last axis, -/
theorem siIdx_vec (j : S4x96x36864.Idx) (c : Fin dims.scatterDimsToOperandDims.length) :
    ((dims.siIdx j c) (3 : Fin 4)).val = c.val := by
  unfold ScatterDims.siIdx
  rw [dif_pos (show ((3 : Fin 4) : Nat) = dims.indexVectorDim from rfl)]

/-- … and `j`'s own coordinates on the others. -/
theorem siIdx_0 (j : S4x96x36864.Idx) (c : Fin dims.scatterDimsToOperandDims.length) :
    ((dims.siIdx j c) (0 : Fin 4)).val = (j 0).val := by
  unfold ScatterDims.siIdx
  rw [dif_neg (show ¬ ((0 : Fin 4) : Nat) = dims.indexVectorDim by decide)]
  rfl

theorem siIdx_1 (j : S4x96x36864.Idx) (c : Fin dims.scatterDimsToOperandDims.length) :
    ((dims.siIdx j c) (1 : Fin 4)).val = (j 1).val := by
  unfold ScatterDims.siIdx
  rw [dif_neg (show ¬ ((1 : Fin 4) : Nat) = dims.indexVectorDim by decide)]
  rfl

theorem toInt_ofNat_small (n : Nat) (h : n < 2147483648) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- No operand axis is a window axis: every update is a single element. -/
theorem sKept_nil : dims.sKept = [] := by decide

theorem window_zero (j : S4x96x36864.Idx) (a : Fin S4x96x147456.rank) : dims.window j a = 0 := by
  unfold ScatterDims.window
  exact dif_neg (by rw [sKept_nil]; exact List.not_mem_nil)

theorem start_0 (j : S4x96x36864.Idx) : dims.start j (val_main_v27 (F := F)) (0 : Fin 3) = ((j 0).val : Int) := by
  unfold ScatterDims.start
  rw [dif_pos (by decide)]
  have hj : (j 0).val < 4 := (j 0).isLt
  rw [comp0 _ (by rw [siIdx_vec]; decide), siIdx_0, toInt_ofNat_small _ (by omega)]

theorem start_1 (j : S4x96x36864.Idx) : dims.start j (val_main_v27 (F := F)) (1 : Fin 3) = ((j 1).val : Int) := by
  unfold ScatterDims.start
  rw [dif_pos (by decide)]
  have hj : (j 1).val < 96 := (j 1).isLt
  rw [comp1 _ (by rw [siIdx_vec]; decide), siIdx_1, toInt_ofNat_small _ (by omega)]

theorem start_2 (j : S4x96x36864.Idx) : dims.start j (val_main_v27 (F := F)) (2 : Fin 3) = 1 := by
  unfold ScatterDims.start
  rw [dif_pos (by decide)]
  rw [comp2 _ (by rw [siIdx_vec]; decide)]
  decide

/-- EVERY update of plane `(b, c)` lands on flat position 1 of output plane `(b, c)`. -/
theorem lands (j : S4x96x36864.Idx) :
    dims.resultIdx? j (val_main_v27 (F := F)) = some (ValueIdx.ix3 (j 0) (j 1) (⟨1, by decide⟩ : Fin 147456)) := by
  refine Cert.Lib.ScatterLast.resultIdx?_eq_some _ _ _ _ (fun a => ?_)
  rw [window_zero]
  fin_cases a
  · exact (congrArg (· + ((0 : Nat) : Int)) (start_0 j)).trans (by simp)
  · exact (congrArg (· + ((0 : Nat) : Int)) (start_1 j)).trans (by simp)
  · exact (congrArg (· + ((0 : Nat) : Int)) (start_2 j)).trans (by simp)

end Cert.ReferenceIdeal.Scatter
end
-- ==== Proof.RefValue.lean ====
/-
  The reference's result array, whole.

  The reference flattens each input plane, scatters it (overwriting) into a zero array of flattened 384 × 384 planes at
  the index vectors `(b, c, 1)`, and reshapes. An overwriting scatter applies its updates in row-major order, so the
  element every update of a plane aims at ends holding the plane's LAST element; nothing else is ever written. Read
  through the two reshapes (flat position 1 is row 0, column 1; flat position 36863 is row 191, column 191) this is the
  specification.
-/
import proofs.«172305_g5016521802084_cont_8to1_c_880_4_alg».proof.Proof.RefScatter
import proofs.«172305_g5016521802084_cont_8to1_c_880_4_alg».proof.Proof.Spec

noncomputable section

open Idealize.ShloMosaic Idealize.ShloMosaic.TcCoe Idealize.SL.Sem

namespace Cert.ReferenceIdeal.Whole

open Cert.ReferenceIdeal Cert.ReferenceIdeal.Gen Cert.ReferenceIdeal.Read Cert.ReferenceIdeal.Scatter Cert.Unpool
open Cert.Lib.ScatterLast

variable {F : FTy → Type} [FloatOps F]

/-- The reference's result is the specification of its argument, index by index. At (row 0, column 1) of plane
    `(b, c)` — flat position 1 — all 36864 updates of the plane land, and the last of them in row-major order, the
    plane's element (191, 191), is the one that stays; on any other position no update lands and the zero fill stays. -/
theorem ref_eq (x0 : (⟨S4x96x192x192, .f32⟩ : BufTy).Contents (Elt F)) : val_main_v29 (F := F) x0 = G x0 := by
  funext i
  have hi0 : (i 0).val < 4 := (i 0).isLt
  have hi1 : (i 1).val < 96 := (i 1).isLt
  have hi2 : (i 2).val < 384 := (i 2).isLt
  have hi3 : (i 3).val < 384 := (i 3).isLt
  have p0 : ((idx_main_v29 i) 0).val = ((((i 0).val * 96 + (i 1).val) * 384 + (i 2).val) * 384 + (i 3).val) / 14155776 := rfl
  have p1 : ((idx_main_v29 i) 1).val = ((((i 0).val * 96 + (i 1).val) * 384 + (i 2).val) * 384 + (i 3).val) / 147456 % 96 := rfl
  have p2 : ((idx_main_v29 i) 2).val = ((((i 0).val * 96 + (i 1).val) * 384 + (i 2).val) * 384 + (i 3).val) % 147456 := rfl
  rw [val_main_v29_apply]
  unfold val_main_v28 G
  by_cases hc : (i 2).val = 0 ∧ (i 3).val = 1
  · rw [if_pos hc]
    rw [scatter_set_last dims _ _ _ (idx_main_v29 i) (ValueIdx.ix3 (i 0) (i 1) (⟨36863, by decide⟩ : Fin 36864))
      ((lands _).trans (congrArg some (funext fun a => Fin.ext (by
        match a with
        | ⟨0, _⟩ => show (i 0).val = ((idx_main_v29 i) 0).val; rw [p0]; omega
        | ⟨1, _⟩ => show (i 1).val = ((idx_main_v29 i) 1).val; rw [p1]; omega
        | ⟨2, _⟩ => show 1 = ((idx_main_v29 i) 2).val; rw [p2]; omega))))
      (fun j hj => by
        rw [lands] at hj
        have hj' := Option.some.inj hj
        have e0 : (j 0).val = ((idx_main_v29 i) 0).val := congrArg Fin.val (congrFun hj' 0)
        have e1 : (j 1).val = ((idx_main_v29 i) 1).val := congrArg Fin.val (congrFun hj' 1)
        have hj2 : (j 2).val < 36864 := (j 2).isLt
        rw [Fin.le_def, Shape.rowMajor_val_three, Shape.rowMajor_val_three]
        show ((j 0).val * 96 + (j 1).val) * 36864 + (j 2).val ≤ ((i 0).val * 96 + (i 1).val) * 36864 + 36863
        rw [e0, e1, p0, p1]
        omega)]
    rw [val_main_v0_apply]
    congr 1
    funext a; apply Fin.ext
    match a with
    | ⟨0, _⟩ => show (((i 0).val * 96 + (i 1).val) * 36864 + 36863) / 3538944 = (i 0).val; omega
    | ⟨1, _⟩ => show (((i 0).val * 96 + (i 1).val) * 36864 + 36863) / 36864 % 96 = (i 1).val; omega
    | ⟨2, _⟩ => show (((i 0).val * 96 + (i 1).val) * 36864 + 36863) / 192 % 192 = 191; omega
    | ⟨3, _⟩ => show (((i 0).val * 96 + (i 1).val) * 36864 + 36863) % 192 = 191; omega
  · rw [if_neg hc]
    rw [scatter_set_miss dims _ _ _ (idx_main_v29 i) (fun j hj => by
      rw [lands] at hj
      have e2 : 1 = ((idx_main_v29 i) 2).val := congrArg Fin.val (congrFun (Option.some.inj hj) 2)
      rw [p2] at e2
      exact hc (by omega))]
    rw [val_main_v2_apply, val_main_cst_apply]

end Cert.ReferenceIdeal.Whole
end
-- ==== Proof.lean ====
/-
  Max-unpooling by 2 with all pooling indices equal to 1: a Pallas kernel against its jnp reference, at the extended reals.

  Both programs compute, from `x : f32[4, 96, 192, 192]`, the array `out : f32[4, 96, 384, 384]` with

      out[b, c, 0, 1] = x[b, c, 191, 191],      out[b, c, r, q] = 0   everywhere else

  (`Cert.Unpool.G`, Proof/Spec.lean).

  * The kernel (Proof/KernelBlock.lean, Proof/KernelValue.lean) has one grid point per batch entry and group of eight
    planes. Each point zero-fills its block of eight whole output planes and then rewrites row 0 of each plane: column 1
    gets element (7, 191) of the last block of eight rows of the matching input plane — row 191 of the plane — and the
    other columns zero. The 48 blocks tile the result array.
  * The reference (Proof/RefScatter.lean, Proof/RefValue.lean) scatters every element of the flattened input plane
    `(b, c)` onto flat position 1 of the flattened output plane `(b, c)`, overwriting. The updates are applied in
    row-major order, so the last element of the plane stays (Proof/LibScatterLast.lean: an overwriting scatter read at
    one element); no other position is written, and the zero fill stays there.

  No float arithmetic is involved on either side — only moves, a select and the zero word — so the two results agree
  for every input, finite or not; the precondition is not used. The kernel's idealization is the kernel's own text (no operation
  was rewritten), so `preserves` is `True`. The three frames are the generated ones (the
  reference's is its generated run with the result dropped).
-/
import proofs.«172305_g5016521802084_cont_8to1_c_880_4_alg».proof.Defs
import proofs.«172305_g5016521802084_cont_8to1_c_880_4_alg».proof.Proof.Gen.Kernel
import proofs.«172305_g5016521802084_cont_8to1_c_880_4_alg».proof.Proof.Gen.Kernel.Frame
import proofs.«172305_g5016521802084_cont_8to1_c_880_4_alg».proof.Proof.Gen.KernelIdeal
import proofs.«172305_g5016521802084_cont_8to1_c_880_4_alg».proof.Proof.Gen.KernelIdeal.Frame
import proofs.«172305_g5016521802084_cont_8to1_c_880_4_alg».proof.Proof.Gen.KernelIdeal.Value
import proofs.«172305_g5016521802084_cont_8to1_c_880_4_alg».proof.Proof.Gen.ReferenceIdeal
import proofs.«172305_g5016521802084_cont_8to1_c_880_4_alg».proof.Proof.Gen.ReferenceIdeal.Run
import proofs.«172305_g5016521802084_cont_8to1_c_880_4_alg».proof.Proof.Gen.ReferenceIdeal.Read
import proofs.«172305_g5016521802084_cont_8to1_c_880_4_alg».proof.Proof.Gen.Pre_finite_inputs
import proofs.«172305_g5016521802084_cont_8to1_c_880_4_alg».proof.Proof.KernelValue
import proofs.«172305_g5016521802084_cont_8to1_c_880_4_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on `x`, both programs end with the specification of `x` in their result arrays. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.Whole.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
